-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x1 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000x128 : Shape := ⟨2, ![10000, 128]⟩
abbrev S800000x128 : Shape := ⟨2, ![800000, 128]⟩
abbrev S50000x1 : Shape := ⟨2, ![50000, 1]⟩
abbrev S1x128 : Shape := ⟨2, ![1, 128]⟩
abbrev S10000x1 : Shape := ⟨2, ![10000, 1]⟩
abbrev S1x1 : Shape := ⟨2, ![1, 1]⟩

abbrev nBuf : Space → Nat
  | .hbm => 106
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x1, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000, .f32⟩
  | .hbm, ⟨82, _⟩ => ⟨S800000, .f32⟩
  | .hbm, ⟨83, _⟩ => ⟨S800000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x1, .f32⟩
  | .hbm, ⟨93, _⟩ => ⟨S800000x1, .f32⟩
  | .hbm, ⟨94, _⟩ => ⟨S_, .f32⟩
  | .hbm, ⟨95, _⟩ => ⟨S50000x1, .f32⟩
  | .hbm, ⟨96, _⟩ => ⟨S800000x1, .i32⟩
  | .hbm, ⟨97, _⟩ => ⟨S50000x1, .f32⟩
  | .hbm, ⟨98, _⟩ => ⟨S50000, .f32⟩
  | .hbm, ⟨99, _⟩ => ⟨S50000x1, .f32⟩
  | .hbm, ⟨100, _⟩ => ⟨S50000x1, .f32⟩
  | .hbm, ⟨101, _⟩ => ⟨S50000x1, .f32⟩
  | .hbm, ⟨102, _⟩ => ⟨S1x1, .f32⟩
  | .hbm, ⟨103, _⟩ => ⟨S50000x1, .f32⟩
  | .hbm, ⟨104, _⟩ => ⟨S50000x1, .f32⟩
  | .hbm, ⟨105, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x1, .f32⟩
  | .local _ .vmem, ⟨13, _⟩ => ⟨S10000x1, .f32⟩
  | .local _ .vmem, ⟨14, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  dot_S10000x128_S128x128_S10000x128_1_0_0_1_n_n_wf : DotDims.WF S10000x128 S128x128 S10000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x1_S10000x1_1_0_0_1_n_n_wf : DotDims.WF S10000x128 S128x1 S10000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x1, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x1, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000, .f32⟩
  | .hbm, ⟨105, _⟩ => ⟨S800000, .f32⟩
  | .hbm, ⟨106, _⟩ => ⟨S800000x1, .f32⟩
  | .hbm, ⟨107, _⟩ => ⟨S800000x1, .f32⟩
  | .hbm, ⟨108, _⟩ => ⟨S_, .f32⟩
  | .hbm, ⟨109, _⟩ => ⟨S50000x1, .f32⟩
  | .hbm, ⟨110, _⟩ => ⟨S800000x1, .i32⟩
  | .hbm, ⟨111, _⟩ => ⟨S50000x1, .f32⟩
  | .hbm, ⟨112, _⟩ => ⟨S50000, .f32⟩
  | .hbm, ⟨113, _⟩ => ⟨S50000x1, .f32⟩
  | .hbm, ⟨114, _⟩ => ⟨S50000x1, .f32⟩
  | .hbm, ⟨115, _⟩ => ⟨S50000x1, .f32⟩
  | .hbm, ⟨116, _⟩ => ⟨S1x1, .f32⟩
  | .hbm, ⟨117, _⟩ => ⟨S50000x1, .f32⟩
  | .hbm, ⟨118, _⟩ => ⟨S50000x1, .f32⟩
  | .hbm, ⟨119, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.NamedRun.lean ====
/-
  The idealized kernel's run with its result NAMED.

  The program is six segments in a row: host operations, the first row-tiled matrix product, host operations, the
  row-tiled bias-and-maximum, the second row-tiled matrix product, host operations. The contents of every buffer at each
  boundary between two segments are a fold from the launch memory: a stretch of host operations applies them in order,
  and a tiled region leaves each of its arrays at what its write-backs fold to and every other buffer as it found it.
  Every weakly fair execution terminates with every unscoped buffer at the LAST boundary's contents. Read at the result
  buffer this names the result; read at an argument it walks back to the launch memory, because no segment writes an
  argument.
-/
import proofs.«167362_j38216618999855_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with
    the result buffer at the last boundary's contents and the six argument arrays as launched. -/
theorem run : θ_run defs (onTc (τ := τ) (main (F := F))) ⟨m, fun _ => 0, ρ⟩ (fun r => ∀ c : Dev nD,
      r.2.mem ((c.tc : Thread nD τ).loc main_v82) = W6 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v82 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.NamedRun

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.LibSage.lean ====
/-
  A mean-aggregating graph layer, one output at a time, over the extended reals. No program is mentioned here.

  For a node n and an output feature c the layer's value is

      (∑ₖ (msg n k / max (deg n) 1) · Wl k c  +  ∑ₖ x n k · Wr k c)  +  b c,

  where msg is the sum of the neighbours' rows, deg the number of neighbours, x the node's own row (sageAt). Two
  arrangements of array operations compute it. Row-block by row-block on a tile of T rows: the quotient by the
  column of clipped degrees, two plain products into zero accumulators, their sum, then the one-row bias stretched
  over the rows (tile_apply). On whole arrays: the quotient by the degree vector kept as a column and stretched,
  a product, the bias vector laid as a row and stretched, then the second product added last (refLayer_apply).
  The two differ only in where the bias enters the sum, and addition on the extended reals is commutative and
  associative, so both are sageAt: no finiteness is needed. sageLayer is the same value laid out as an array.
-/
import Idealize.ShloMosaic.PureOps.Ideal.Laws
import Idealize.ShloMosaic.Lib.ValueIdx
import Idealize.ShloMosaic.Lib.ValueLayout
import Idealize.ShloMosaic.Lib.Pipeline.Value
import proofs.«167362_j38216618999855_1_alg».proof.Proof.LibDense
import proofs.«167362_j38216618999855_1_alg».proof.Proof.LibKeepdims

noncomputable section

open scoped BigOperators

namespace LibSage

open Idealize.ShloMosaic Idealize.ShloMosaic.ValueIdx

/-- One output of the layer: the neighbour sum's row divided by the clipped degree against a column of the first
    weights, plus the node's row against a column of the second weights, plus the bias. `one` is the clip. -/
def sageAt {K : ℕ} (one : EReal) (msg : Fin K → EReal) (d : EReal) (x : Fin K → EReal) (wl wr : Fin K → EReal)
    (b : EReal) : EReal :=
  (∑ k : Fin K, Ideal.div (msg k) (max d one) * wl k + ∑ k : Fin K, x k * wr k) + b

/-- The layer as an array: entry (n, c) from row n of the neighbour sums and of the features, the degree column's
    entry n, columns c of the two weight arrays and the bias row's entry c. -/
def sageLayer {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) : (⟨2, ![N, C]⟩ : Shape).Idx → EReal :=
  fun i => sageAt one (fun k => msg (ix2 (i 0 : Fin N) k)) (degc (ix2 (i 0 : Fin N) (0 : Fin 1))) (fun k => x (ix2 (i 0 : Fin N) k))
    (fun k => wl (ix2 k (i 1 : Fin C))) (fun k => wr (ix2 k (i 1 : Fin C))) (brow (ix2 (0 : Fin 1) (i 1 : Fin C)))

theorem sageLayer_apply {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) (n : Fin N) (c : Fin C) :
    sageLayer one msg degc x wl brow wr (ix2 n c)
      = sageAt one (fun k => msg (ix2 n k)) (degc (ix2 n (0 : Fin 1))) (fun k => x (ix2 n k))
          (fun k => wl (ix2 k c)) (fun k => wr (ix2 k c)) (brow (ix2 (0 : Fin 1) c)) := rfl

/-- The host's plain product of an N×K by a K×C array at (r, c): the sum over k of lhs (r, k) · rhs (k, c) — the
    same sum a product into a zero accumulator reads. -/
theorem plain_dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) :=
  (Ideal.dotGeneral_apply d prec .single lhs rhs (ix2 r c)).trans
    ((Ideal.matmul_constant_zero_apply d prec lhs rhs (ix2 r c)).symm.trans (LibDense.plain_matmul_apply d hd prec lhs rhs r c))

section Rows
variable {α : Type}

/-- A vector of b entries broadcast in dimension 1 to one row reads, at (u, c), the vector's entry c. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- One row broadcast in dimensions (0, 1) over a rows reads, at (p, c), the row's entry c. -/
theorem broadcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

end Rows

/-- THE TILE ARRANGEMENT. On a tile of T rows: the neighbour sums divided by the column of degrees clipped below at
    `one` and stretched along the rows, multiplied into the first weights; the tile's own rows multiplied into the second
    weights; the two products added, then the bias row stretched over the rows added. Entry (p, q) is sageAt of row p. -/
theorem tile_apply {T K C : ℕ} (d : DotDims ⟨2, ![T, K]⟩ ⟨2, ![K, C]⟩ ⟨2, ![T, C]⟩) (hd : d = DotDims.plain T K C)
    (hbc : (⟨2, ![T, 1]⟩ : Shape).Broadcasts ⟨2, ![T, K]⟩) (hbr : (⟨2, ![1, C]⟩ : Shape).Broadcasts ⟨2, ![T, C]⟩)
    (hlt : FTy.bf16.bits < FTy.f32.bits) (w1 : BitVec FTy.f32.bits)
    (v0 : FVec Ideal ⟨2, ![T, 1]⟩ .f32) (v2 v9 : FVec Ideal ⟨2, ![T, K]⟩ .f32) (v11 v13 : FVec Ideal ⟨2, ![K, C]⟩ .f32)
    (v18 : FVec Ideal ⟨2, ![1, C]⟩ .f32) (p : Fin T) (q : Fin C) :
    addf (addf
        (matmul d none (truncf .bf16 (divf v2 (broadcastTo ⟨2, ![T, K]⟩ (maximumf v0 (broadcast ⟨2, ![T, 1]⟩ (Scalar.ofBits (F := Ideal) .f32 w1))) hbc)) hlt)
          (truncf .bf16 v11 hlt) (constant ⟨2, ![T, C]⟩ .f32 0x00000000#32))
        (matmul d none (truncf .bf16 v9 hlt) (truncf .bf16 v13 hlt) (constant ⟨2, ![T, C]⟩ .f32 0x00000000#32)))
      (broadcastTo ⟨2, ![T, C]⟩ v18 hbr) (ix2 p q)
    = sageAt (Ideal.ofBits .f32 w1) (fun k => v2 (ix2 p k)) (v0 (ix2 p (0 : Fin 1))) (fun k => v9 (ix2 p k))
        (fun k => v11 (ix2 k q)) (fun k => v13 (ix2 k q)) (v18 (ix2 (0 : Fin 1) q)) := by
  rw [addf_apply, addf_apply, LibDense.plain_matmul_apply d hd, LibDense.plain_matmul_apply d hd, broadcastTo_1b_ab_apply]
  unfold sageAt
  refine congrArg (· + v18 (ix2 (0 : Fin 1) q)) (congrArg₂ (· + ·) (Finset.sum_congr rfl fun k _ => ?_) (Finset.sum_congr rfl fun k _ => ?_))
  · rw [truncf_apply, truncf_apply, divf_apply, LibDense.broadcast_col_apply, maximumf_apply, broadcast_apply]
    rfl
  · rw [truncf_apply, truncf_apply]

/-- THE WHOLE-ARRAY ARRANGEMENT. The neighbour sums divided by the degree vector clipped below at `one`, kept as a
    column and stretched along the rows, multiplied into the first weights; the bias vector laid as one row and stretched
    over the rows added; the features multiplied into the second weights added last. Entry (n, c) is sageAt of row n:
    the bias moves past the second product by commutativity and associativity of the sum. -/
theorem refLayer_apply {N K C : ℕ} (d : DotDims ⟨2, ![N, K]⟩ ⟨2, ![K, C]⟩ ⟨2, ![N, C]⟩) (hd : d = DotDims.plain N K C)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (w1 : BitVec FTy.f32.bits)
    (msg x : FVec Ideal ⟨2, ![N, K]⟩ .f32) (deg : FVec Ideal ⟨1, ![N]⟩ .f32) (wl wr : FVec Ideal ⟨2, ![K, C]⟩ .f32)
    (b : FVec Ideal ⟨1, ![C]⟩ .f32) (n : Fin N) (c : Fin C) :
    addf (addf
        (Host.dotGeneral d none
          (Host.divf msg (broadcastInDim ⟨2, ![N, K]⟩ (![0, 1] : Fin 2 → Fin 2) h2 (broadcastInDim ⟨2, ![N, 1]⟩ (![0] : Fin 1 → Fin 2) h1
            (maximumf deg (broadcastInDim ⟨1, ![N]⟩ (![] : Fin 0 → Fin 1) h0 (constant (F := Ideal) ⟨0, ![]⟩ .f32 w1)))))) wl)
        (broadcastInDim ⟨2, ![N, C]⟩ (![0, 1] : Fin 2 → Fin 2) h4 (broadcastInDim ⟨2, ![1, C]⟩ (![1] : Fin 1 → Fin 2) h3 b)))
      (Host.dotGeneral d none x wr) (ix2 n c)
    = sageAt (Ideal.ofBits .f32 w1) (fun k => msg (ix2 n k)) (deg (ix1 n)) (fun k => x (ix2 n k))
        (fun k => wl (ix2 k c)) (fun k => wr (ix2 k c)) (b (ix1 c)) := by
  have hdeg : ∀ k : Fin K,
      (broadcastInDim ⟨2, ![N, K]⟩ (![0, 1] : Fin 2 → Fin 2) h2 (broadcastInDim ⟨2, ![N, 1]⟩ (![0] : Fin 1 → Fin 2) h1
        (maximumf deg (broadcastInDim ⟨1, ![N]⟩ (![] : Fin 0 → Fin 1) h0 (constant (F := Ideal) ⟨0, ![]⟩ .f32 w1))))) (ix2 n k)
        = max (deg (ix1 n)) (Ideal.ofBits .f32 w1) := by
    intro k
    rw [Cert.Gcn.broadcastInDim_a1_ab_apply, Cert.Gcn.broadcastInDim_a_a1_apply, maximumf_apply]
    refine congrArg (max (deg (ix1 n))) ?_
    exact (broadcastInDim_apply (![] : Fin 0 → Fin 1) h0 _ (ix1 n) ix0 (fun a => a.elim0)).trans rfl
  rw [addf_apply, addf_apply, plain_dotGeneral_apply d hd, plain_dotGeneral_apply d hd, broadcastInDim_1b_ab_apply,
    broadcastInDim_b_1b_apply]
  unfold sageAt
  rw [add_right_comm]
  refine congrArg (· + b (ix1 c)) (congrArg (· + ∑ k : Fin K, x (ix2 n k) * wr (ix2 k c)) (Finset.sum_congr rfl fun k _ => ?_))
  show Ideal.div (msg (ix2 n k)) _ * wl (ix2 k c) = _
  rw [hdeg k]

end LibSage

end
-- ==== Proof.FirstProduct.lean ====
/-
  The first tiled region: a matrix product done 10000 rows at a time.

  The region reads the 50000 x 128 input in five blocks of 10000 rows and the whole 128 x 128 weight array at every
  point, and writes block t of its output as the product of input block t with the weights (the change to a shorter float
  format before the product is the identity on the extended reals, and the accumulator starts at zero). Row r of that block
  is row (10000 t + r) of the input times the weights, so every block is the restriction of ONE array: the whole
  50000 x 128 by 128 x 128 product. The five blocks tile the output (row r lies in block r / 10000), so after the region
  the output array is that product.
-/
import proofs.«167362_j38216618999855_1_alg».proof.Proof.Gen.KernelIdeal.Frame
import proofs.«167362_j38216618999855_1_alg».proof.Proof.LibDense
import proofs.«167362_j38216618999855_1_alg».proof.Proof.LibSage
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.FirstProduct

open Idealize.ShloMosaic Idealize.ShloMosaic.TcCoe Idealize.SL.Sem Idealize.ShloMosaic.ValueIdx
open Cert.KernelIdeal Cert.KernelIdeal.Gen

/-- The whole product: 50000 x 128 by 128 x 128, as the host computes it. -/
abbrev whole (x : S50000x128.Idx → EReal) (w : S128x128.Idx → EReal) : S50000x128.Idx → EReal :=
  Host.dotGeneral (F := Ideal) (φ₁ := .f32) (φ₂ := .f32) (DotDims.plain 50000 128 128) none x w

/-- The whole product at (r, c): the sum over k of x (r, k) * w (k, c). -/
theorem whole_apply (x : S50000x128.Idx → EReal) (w : S128x128.Idx → EReal) (r : Fin 50000) (c : Fin 128) :
    whole x w (ix2 r c) = ∑ k : Fin 128, x (ix2 r k) * w (ix2 k c) :=
  LibSage.plain_dotGeneral_apply (DotDims.plain 50000 128 128) rfl none x w r c

/-- What one point stores, at (p, q): the sum over k of its input block at (p, k) times the weights at (k, q). -/
theorem stored_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact LibDense.plain_matmul_apply dot_S10000x128_S128x128_S10000x128_1_0_0_1_n_n rfl none _ _ p q

/-- A block of 10000 rows starting at row o: if the point's input block is rows o .. o + 9999 of x and its second operand is
    w, what it stores at j is the whole product at the index i whose row is o + (row of j) and whose column is j's. -/
theorem tile (o : ℕ) (ho : o + 10000 ≤ 50000) (x0 : Vec Ideal S10000x128 .f32) (x1 : Vec Ideal S128x128 .f32)
    (x : S50000x128.Idx → EReal) (w : S128x128.Idx → EReal)
    (hx0 : ∀ (p : Fin 10000) (k : Fin 128), x0 (ix2 p k) = x (ix2 (⟨o + p.val, by omega⟩ : Fin 50000) k))
    (hx1 : ∀ (k : Fin 128) (q : Fin 128), x1 (ix2 k q) = w (ix2 k q))
    (j : S10000x128.Idx) (i : S50000x128.Idx) (hi0 : (i 0).val = o + (j 0).val) (hi1 : (i 1).val = (j 1).val) :
    k0_pay1 (F := Ideal) x0 x1 j = whole x w i := by
  obtain ⟨p, q, rfl⟩ : ∃ (p : Fin 10000) (q : Fin 128), j = ix2 p q := ⟨j 0, j 1, eq_ix2 j⟩
  have hi : i = ix2 (⟨o + p.val, by omega⟩ : Fin 50000) q := by
    funext a; apply Fin.ext
    match a with
    | ⟨0, _⟩ => exact hi0
    | ⟨1, _⟩ => exact hi1
  rw [hi, stored_apply, whole_apply]
  exact Finset.sum_congr rfl fun k _ => by rw [hx0, hx1]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the five points: the input's and the output's row block is the point's number, their column
    block is 0, and the weights' block is always (0, 0). -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := index_facts t
  have ht : t.val < 5 := by
    have h := t.isLt
    have hN : cfg0.N = 5 := N_0
    omega
  funext j
  refine tile (win0_2.index t (0 : Fin 2) * 10000) (by omega) (iblk0 V c 0 t) (iblk0 V c 1 t) (V c main_arg0) (V c main_arg2)
    (fun p k => ?_) (fun k q => ?_) j (((cfg0.win 2).blk t).view.emb j) ?_ ?_
  · show V c main_arg0 (((cfg0.win 0).blk t).view.emb (ix2 p k)) = V c main_arg0 _
    congr 1
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · show V c main_arg2 (((cfg0.win 1).blk t).view.emb (ix2 k q)) = V c main_arg2 _
    congr 1
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 10000 + 1 * (j 0).val = win0_2.index t (0 : Fin 2) * 10000 + (j 0).val; omega
  · show win0_2.index t (1 : Fin 2) * 128 + 1 * (j 1).val = (j 1).val; omega

/-- An index of the output array is in point t's block iff each coordinate is in the block's range on its axis. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v11).slice (win0_2.rect t)).set ↔ _
  rw [View.set_slice_whole, Rect.mem_set_unit]
  exact Iff.rfl

/-- The five blocks tile the output: row r lies in block r / 10000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have hN' : grid0.N = 5 := N_0
  have hlt : (i 0).val / 10000 < cfg0.N := by omega
  refine ⟨⟨(i 0).val / 10000, hlt⟩, flush0_2 _, ?_⟩
  rw [mem_block]
  obtain ⟨e0, e1, e2, e3, e4, e5⟩ := index_facts ⟨(i 0).val / 10000, hlt⟩
  have e4' : win0_2.index ⟨(i 0).val / 10000, hlt⟩ (0 : Fin 2) = (i 0).val / 10000 := e4
  intro a
  match a with
  | ⟨0, _⟩ => show win0_2.index _ (0 : Fin 2) * 10000 ≤ (i 0).val ∧ (i 0).val < win0_2.index _ (0 : Fin 2) * 10000 + 10000; omega
  | ⟨1, _⟩ => show win0_2.index _ (1 : Fin 2) * 128 ≤ (i 1).val ∧ (i 1).val < win0_2.index _ (1 : Fin 2) * 128 + 128; omega

/-- After the region its output array is the whole product of the input and weight arrays it found. -/
theorem array_eq (c : Dev nD) :
    (dat0 V c).arrAt 2 cfg0.N = whole (V c main_arg0) (V c main_arg2) :=
  (dat0 V c).arrAt_eq_of_cover 2 (whole (V c main_arg0) (V c main_arg2)) (fun t _ => flushed_eq V c t) cover

end Cert.KernelIdeal.FirstProduct

end
-- ==== Proof.LibGcnLayers.lean ====
/-
  The three dense stages of a two-layer graph convolution, as whole-array functions over the extended reals.

  With rows indexed by nodes: `lin x w` is the product x·w, entry (n, d) = Σ_k x (n, k) · w (k, d); `hidden a b w` adds
  the row vector b to every row of a, applies the leaky rectifier z ↦ z if z ≥ 0 else s·z (s the 32-bit float nearest
  1/100, kept as its binary word), and multiplies by w; `addRow a b` adds the row vector b to every row of a.

  Each is also what a tile of T consecutive rows computes from that tile alone: a product into a zero accumulator after a
  change of format (the identity on the extended reals), a row vector stretched over the tile, and the rectifier
  element by element. A tile's height and position never enter, so an array computed tile by tile is the whole-array
  function. No program is mentioned here.
-/
import proofs.«167362_j38216618999855_1_alg».proof.Proof.LibDense
import Idealize.ShloMosaic.Lib.ValueLayout

noncomputable section

open scoped BigOperators

namespace GcnLayers

open Idealize.ShloMosaic Idealize.ShloMosaic.ValueIdx

/-- A two-axis array of extended reals. -/
abbrev Arr (n0 n1 : ℕ) : Type := (⟨2, ![n0, n1]⟩ : Shape).Idx → EReal

/-- The leaky rectifier on one extended real: z where z ≥ 0, otherwise the slope word times z. -/
def lrelu (z : EReal) : EReal :=
  Scalar.select (FloatOps.cmpf (F := Ideal) (φ := .f32) .oge z (FloatOps.ofBits (F := Ideal) .f32 0x00000000#32)) z
    (FloatOps.mulf (F := Ideal) (φ := .f32) (FloatOps.ofBits (F := Ideal) .f32 0x3C23D70A#32) z)

/-- The product x·w: entry (n, d) is the sum over k of x (n, k) · w (k, d). -/
def lin {N K D : ℕ} (x : Arr N K) (w : Arr K D) : Arr N D :=
  fun i => ∑ k : Fin K, x (ix2 (n0 := N) (n1 := K) (i 0) k) * w (ix2 (n0 := K) (n1 := D) k (i 1))

/-- Bias, leaky rectifier, product: entry (n, d) is the sum over k of lrelu (a (n, k) + b (0, k)) · w (k, d). -/
def hidden {N K D : ℕ} (a : Arr N K) (b : Arr 1 K) (w : Arr K D) : Arr N D :=
  fun i => ∑ k : Fin K, lrelu (a (ix2 (n0 := N) (n1 := K) (i 0) k) + b (ix2 (n0 := 1) (n1 := K) 0 k))
    * w (ix2 (n0 := K) (n1 := D) k (i 1))

/-- The row vector b added to every row of a. -/
def addRow {N D : ℕ} (a : Arr N D) (b : Arr 1 D) : Arr N D :=
  fun i => a i + b (ix2 (n0 := 1) (n1 := D) 0 (i 1))

theorem lin_apply {N K D : ℕ} (x : Arr N K) (w : Arr K D) (n : Fin N) (d : Fin D) :
    lin x w (ix2 n d) = ∑ k : Fin K, x (ix2 n k) * w (ix2 k d) := rfl

theorem hidden_apply {N K D : ℕ} (a : Arr N K) (b : Arr 1 K) (w : Arr K D) (n : Fin N) (d : Fin D) :
    hidden a b w (ix2 n d) = ∑ k : Fin K, lrelu (a (ix2 n k) + b (ix2 0 k)) * w (ix2 k d) := rfl

theorem addRow_apply {N D : ℕ} (a : Arr N D) (b : Arr 1 D) (n : Fin N) (d : Fin D) :
    addRow a b (ix2 n d) = a (ix2 n d) + b (ix2 0 d) := rfl

/-- A row vector [1, K] stretched over T rows reads, at (r, k), its entry k. -/
theorem stretch_row_apply {T K : ℕ} {α : Type} (v : (⟨2, ![1, K]⟩ : Shape).Idx → α)
    (h : (⟨2, ![1, K]⟩ : Shape).Broadcasts ⟨2, ![T, K]⟩) (r : Fin T) (k : Fin K) :
    broadcastTo ⟨2, ![T, K]⟩ v h (ix2 r k) = v (ix2 (n0 := 1) (n1 := K) 0 k) := by
  refine broadcastTo_apply v h (ix2 r k) (ix2 (n0 := 1) (n1 := K) 0 k) fun a => ?_
  match a with
  | ⟨0, _⟩ => show (0 : ℕ) = if (1 : ℕ) = 1 then 0 else _; rw [if_pos rfl]
  | ⟨1, _⟩ =>
    show k.val = if K = 1 then 0 else k.val
    split
    · rename_i hK; have := k.isLt; omega
    · rfl

/-- A tile of T rows of the product: after the change of format of both factors, into the zero accumulator. -/
theorem lin_tile {T K D : ℕ} (d : DotDims ⟨2, ![T, K]⟩ ⟨2, ![K, D]⟩ ⟨2, ![T, D]⟩) (hd : d = DotDims.plain T K D)
    (prec : Option ContractPrecision) (x : FVec Ideal ⟨2, ![T, K]⟩ .f32) (w : FVec Ideal ⟨2, ![K, D]⟩ .f32)
    (h1 : FTy.bf16.bits < FTy.f32.bits) (r : Fin T) (c : Fin D) :
    matmul d prec (truncf .bf16 x h1) (truncf .bf16 w h1) (constant ⟨2, ![T, D]⟩ .f32 0x00000000#32) (ix2 r c)
      = ∑ k : Fin K, x (ix2 r k) * w (ix2 k c) :=
  LibDense.plain_matmul_apply d hd prec (truncf .bf16 x h1) (truncf .bf16 w h1) r c

/-- The rectifier as vector operations compute it (compare with a stretched zero, select between the value and the
    stretched slope times the value), element by element. -/
theorem lrelu_vec {s : Shape} (v : FVec Ideal s .f32) (i : s.Idx) :
    (select (cmpf .oge v (broadcast s (Scalar.ofBits (F := Ideal) .f32 0x00000000#32))) v
      (mulf (broadcast s (Scalar.ofBits (F := Ideal) .f32 0x3C23D70A#32)) v) : FVec Ideal s .f32) i = lrelu (v i) := rfl

/-- A tile plus a row vector stretched over it (after casts to their own shapes), at (r, k). -/
theorem row_plus_apply {T K : ℕ} (x : FVec Ideal ⟨2, ![T, K]⟩ .f32) (b : FVec Ideal ⟨2, ![1, K]⟩ .f32)
    (h0 : (⟨2, ![T, K]⟩ : Shape).ShapeCasts ⟨2, ![T, K]⟩) (h1 : (⟨2, ![1, K]⟩ : Shape).ShapeCasts ⟨2, ![1, K]⟩)
    (h2 : (⟨2, ![1, K]⟩ : Shape).Broadcasts ⟨2, ![T, K]⟩) (r : Fin T) (k : Fin K) :
    (addf (shapeCast ⟨2, ![T, K]⟩ x h0) (broadcastTo ⟨2, ![T, K]⟩ (shapeCast ⟨2, ![1, K]⟩ b h1) h2) : FVec Ideal ⟨2, ![T, K]⟩ .f32) (ix2 r k)
      = x (ix2 r k) + b (ix2 (n0 := 1) (n1 := K) 0 k) := by
  rw [shapeCast_self, shapeCast_self]
  exact congrArg (x (ix2 r k) + ·) (stretch_row_apply b h2 r k)

/-- A tile of T rows of `hidden`: bias, rectifier, change of format, product into the zero accumulator. -/
theorem hidden_tile {T K D : ℕ} (d : DotDims ⟨2, ![T, K]⟩ ⟨2, ![K, D]⟩ ⟨2, ![T, D]⟩) (hd : d = DotDims.plain T K D)
    (prec : Option ContractPrecision) (x : FVec Ideal ⟨2, ![T, K]⟩ .f32) (b : FVec Ideal ⟨2, ![1, K]⟩ .f32)
    (w : FVec Ideal ⟨2, ![K, D]⟩ .f32)
    (h0 : (⟨2, ![T, K]⟩ : Shape).ShapeCasts ⟨2, ![T, K]⟩) (h1 : (⟨2, ![1, K]⟩ : Shape).ShapeCasts ⟨2, ![1, K]⟩)
    (h2 : (⟨2, ![1, K]⟩ : Shape).Broadcasts ⟨2, ![T, K]⟩) (hb : FTy.bf16.bits < FTy.f32.bits) (r : Fin T) (c : Fin D) :
    matmul d prec
        (truncf .bf16
          (select
            (cmpf .oge (addf (shapeCast ⟨2, ![T, K]⟩ x h0) (broadcastTo ⟨2, ![T, K]⟩ (shapeCast ⟨2, ![1, K]⟩ b h1) h2))
              (broadcast ⟨2, ![T, K]⟩ (Scalar.ofBits (F := Ideal) .f32 0x00000000#32)))
            (addf (shapeCast ⟨2, ![T, K]⟩ x h0) (broadcastTo ⟨2, ![T, K]⟩ (shapeCast ⟨2, ![1, K]⟩ b h1) h2))
            (mulf (broadcast ⟨2, ![T, K]⟩ (Scalar.ofBits (F := Ideal) .f32 0x3C23D70A#32))
              (addf (shapeCast ⟨2, ![T, K]⟩ x h0) (broadcastTo ⟨2, ![T, K]⟩ (shapeCast ⟨2, ![1, K]⟩ b h1) h2)))) hb)
        (truncf .bf16 w hb) (constant ⟨2, ![T, D]⟩ .f32 0x00000000#32) (ix2 r c)
      = ∑ k : Fin K, lrelu (x (ix2 r k) + b (ix2 (n0 := 1) (n1 := K) 0 k)) * w (ix2 k c) :=
  (lin_tile d hd prec _ w hb r c).trans
    (Finset.sum_congr rfl fun k _ => congrArg (· * w (ix2 k c))
      ((lrelu_vec _ (ix2 r k)).trans (congrArg lrelu (row_plus_apply x b h0 h1 h2 r k))))

/-- A vector of K entries laid out as the one row of a [1, K] array. -/
def asRow {K : ℕ} {α : Type} (x : (⟨1, ![K]⟩ : Shape).Idx → α) : (⟨2, ![1, K]⟩ : Shape).Idx → α :=
  fun j => x (ix1 (n := K) (j 1))

/-- A reshape of a vector to one row is that row. -/
theorem shapeCast_asRow {K : ℕ} {α : Type} (x : (⟨1, ![K]⟩ : Shape).Idx → α)
    (h : (⟨1, ![K]⟩ : Shape).ShapeCasts ⟨2, ![1, K]⟩) : shapeCast ⟨2, ![1, K]⟩ x h = asRow x := by
  funext j
  refine shapeCast_apply x h j (ix1 (n := K) (j 1)) ?_
  rw [Shape.rowMajor_val_two, Shape.rowMajor_val_one]
  have h0 : (j 0).val < 1 := (j 0).isLt
  show (j 1).val = (j 0).val * K + (j 1).val
  have : (j 0).val = 0 := by omega
  rw [this]; omega

end GcnLayers

end
-- ==== Proof.LibGcnCombine.lean ====
/-
  The dense half of one graph-convolution layer once the neighbour sum is known, as whole-array functions over the
  extended reals. With rows indexed by nodes, `combine agg h d b` has entry (n, k) = (agg (n, k) + h (n, k) · d (n, 0))
  + b (0, k): the neighbour sum, plus the node's own row weighted by its squared inverse-root degree (kept as a column),
  plus the bias (kept as a row). `combineRelu` takes the maximum of that with zero. The product x·w is `GcnLayers.lin`.

  Each is also what a tile of T consecutive rows computes from the tile's rows alone (the column stretched along the
  second axis, the row along the first), so an array computed tile by tile is the whole-array function. Two spellings of
  the same column and row are identified: a vector reshaped to a column is its broadcast to a column, a vector reshaped to
  a row is its broadcast to a row. No program is mentioned here.
-/
import proofs.«167362_j38216618999855_1_alg».proof.Proof.LibGcnLayers
import proofs.«167362_j38216618999855_1_alg».proof.Proof.LibKeepdims
import proofs.«167362_j38216618999855_1_alg».proof.Proof.LibSage

noncomputable section

open scoped BigOperators

namespace GcnSpec

open Idealize.ShloMosaic Idealize.ShloMosaic.ValueIdx GcnLayers

/-- The maximum of an extended real with zero (zero kept as its 32-bit word). -/
def relu (z : EReal) : EReal :=
  FloatOps.maximumf (F := Ideal) (φ := .f32) z (FloatOps.ofBits (F := Ideal) .f32 0x00000000#32)

/-- Neighbour sum + own row times the degree column + bias row. -/
def combine {N D : ℕ} (agg h : Arr N D) (d : Arr N 1) (b : Arr 1 D) : Arr N D :=
  fun i => (agg i + h i * d (ix2 (n0 := N) (n1 := 1) (i 0) 0)) + b (ix2 (n0 := 1) (n1 := D) 0 (i 1))

/-- The same, then the maximum with zero. -/
def combineRelu {N D : ℕ} (agg h : Arr N D) (d : Arr N 1) (b : Arr 1 D) : Arr N D :=
  fun i => relu (combine agg h d b i)

theorem combine_apply {N D : ℕ} (agg h : Arr N D) (d : Arr N 1) (b : Arr 1 D) (n : Fin N) (k : Fin D) :
    combine agg h d b (ix2 n k) = (agg (ix2 n k) + h (ix2 n k) * d (ix2 n 0)) + b (ix2 0 k) := rfl

theorem combineRelu_apply {N D : ℕ} (agg h : Arr N D) (d : Arr N 1) (b : Arr 1 D) (n : Fin N) (k : Fin D) :
    combineRelu agg h d b (ix2 n k) = relu ((agg (ix2 n k) + h (ix2 n k) * d (ix2 n 0)) + b (ix2 0 k)) := rfl

/-- A tile of T rows of `combine`: after casts to their own shapes, the column stretched along the second axis and the
    row along the first, at (r, k). -/
theorem combine_tile {T D : ℕ} (x0 x1 : FVec Ideal ⟨2, ![T, D]⟩ .f32) (x2 : FVec Ideal ⟨2, ![T, 1]⟩ .f32)
    (x3 : FVec Ideal ⟨2, ![1, D]⟩ .f32)
    (h0 : (⟨2, ![T, D]⟩ : Shape).ShapeCasts ⟨2, ![T, D]⟩) (h2 : (⟨2, ![T, 1]⟩ : Shape).ShapeCasts ⟨2, ![T, 1]⟩)
    (h3 : (⟨2, ![1, D]⟩ : Shape).ShapeCasts ⟨2, ![1, D]⟩)
    (hc : (⟨2, ![T, 1]⟩ : Shape).Broadcasts ⟨2, ![T, D]⟩) (hr : (⟨2, ![1, D]⟩ : Shape).Broadcasts ⟨2, ![T, D]⟩)
    (r : Fin T) (k : Fin D) :
    (addf (addf (shapeCast ⟨2, ![T, D]⟩ x0 h0)
        (mulf (shapeCast ⟨2, ![T, D]⟩ x1 h0) (broadcastTo ⟨2, ![T, D]⟩ (shapeCast ⟨2, ![T, 1]⟩ x2 h2) hc)))
      (broadcastTo ⟨2, ![T, D]⟩ (shapeCast ⟨2, ![1, D]⟩ x3 h3) hr) : FVec Ideal ⟨2, ![T, D]⟩ .f32) (ix2 r k)
      = (x0 (ix2 r k) + x1 (ix2 r k) * x2 (ix2 r (0 : Fin 1))) + x3 (ix2 (n0 := 1) (n1 := D) 0 k) := by
  rw [shapeCast_self, shapeCast_self, shapeCast_self, shapeCast_self]
  show (x0 (ix2 r k) + x1 (ix2 r k) * broadcastTo ⟨2, ![T, D]⟩ x2 hc (ix2 r k)) + broadcastTo ⟨2, ![T, D]⟩ x3 hr (ix2 r k) = _
  rw [LibDense.broadcast_col_apply x2 hc r k, stretch_row_apply x3 hr r k]

/-- The same tile, then the maximum with a stretched zero. -/
theorem combineRelu_tile {T D : ℕ} (x0 x1 : FVec Ideal ⟨2, ![T, D]⟩ .f32) (x2 : FVec Ideal ⟨2, ![T, 1]⟩ .f32)
    (x3 : FVec Ideal ⟨2, ![1, D]⟩ .f32)
    (h0 : (⟨2, ![T, D]⟩ : Shape).ShapeCasts ⟨2, ![T, D]⟩) (h2 : (⟨2, ![T, 1]⟩ : Shape).ShapeCasts ⟨2, ![T, 1]⟩)
    (h3 : (⟨2, ![1, D]⟩ : Shape).ShapeCasts ⟨2, ![1, D]⟩)
    (hc : (⟨2, ![T, 1]⟩ : Shape).Broadcasts ⟨2, ![T, D]⟩) (hr : (⟨2, ![1, D]⟩ : Shape).Broadcasts ⟨2, ![T, D]⟩)
    (r : Fin T) (k : Fin D) :
    (maximumf (addf (addf (shapeCast ⟨2, ![T, D]⟩ x0 h0)
        (mulf (shapeCast ⟨2, ![T, D]⟩ x1 h0) (broadcastTo ⟨2, ![T, D]⟩ (shapeCast ⟨2, ![T, 1]⟩ x2 h2) hc)))
      (broadcastTo ⟨2, ![T, D]⟩ (shapeCast ⟨2, ![1, D]⟩ x3 h3) hr))
      (broadcast ⟨2, ![T, D]⟩ (Scalar.ofBits (F := Ideal) .f32 0x00000000#32)) : FVec Ideal ⟨2, ![T, D]⟩ .f32) (ix2 r k)
      = relu ((x0 (ix2 r k) + x1 (ix2 r k) * x2 (ix2 r (0 : Fin 1))) + x3 (ix2 (n0 := 1) (n1 := D) 0 k)) :=
  congrArg relu (combine_tile x0 x1 x2 x3 h0 h2 h3 hc hr r k)

/-- A vector of N entries laid out as the one column of an [N, 1] array. -/
def asCol {N : ℕ} {α : Type} (x : (⟨1, ![N]⟩ : Shape).Idx → α) : (⟨2, ![N, 1]⟩ : Shape).Idx → α :=
  fun j => x (ix1 (n := N) (j 0))

/-- A reshape of a vector to one column is that column. -/
theorem shapeCast_asCol {N : ℕ} {α : Type} (x : (⟨1, ![N]⟩ : Shape).Idx → α)
    (h : (⟨1, ![N]⟩ : Shape).ShapeCasts ⟨2, ![N, 1]⟩) : shapeCast ⟨2, ![N, 1]⟩ x h = asCol x := by
  funext j
  obtain ⟨p, u, rfl⟩ : ∃ (p : Fin N) (u : Fin 1), j = ix2 p u := ⟨j 0, j 1, eq_ix2 j⟩
  exact Cert.Gcn.shapeCast_a_a1_apply x h p u

/-- A broadcast of a vector to one column is that column. -/
theorem broadcastInDim_asCol {N : ℕ} {α : Type} (x : (⟨1, ![N]⟩ : Shape).Idx → α)
    (h : (⟨1, ![N]⟩ : Shape).BroadcastsInDim ⟨2, ![N, 1]⟩ ![0]) : broadcastInDim ⟨2, ![N, 1]⟩ ![0] h x = asCol x := by
  funext j
  obtain ⟨p, u, rfl⟩ : ∃ (p : Fin N) (u : Fin 1), j = ix2 p u := ⟨j 0, j 1, eq_ix2 j⟩
  exact Cert.Gcn.broadcastInDim_a_a1_apply h x p u

/-- A broadcast of a vector to one row is that row. -/
theorem broadcastInDim_asRow {K : ℕ} {α : Type} (x : (⟨1, ![K]⟩ : Shape).Idx → α)
    (h : (⟨1, ![K]⟩ : Shape).BroadcastsInDim ⟨2, ![1, K]⟩ (![1] : Fin 1 → Fin 2)) :
    broadcastInDim ⟨2, ![1, K]⟩ (![1] : Fin 1 → Fin 2) h x = asRow x := by
  funext j
  obtain ⟨u, k, rfl⟩ : ∃ (u : Fin 1) (k : Fin K), j = ix2 u k := ⟨j 0, j 1, eq_ix2 j⟩
  exact LibSage.broadcastInDim_b_1b_apply h x u k

/-- The host's spelling of `combine`: the degree vector broadcast to a column and then along the rows, the bias vector
    broadcast to a row and then along the columns. -/
theorem combine_host {N D : ℕ} (A H : FVec Ideal ⟨2, ![N, D]⟩ .f32) (sw : FVec Ideal ⟨1, ![N]⟩ .f32)
    (b : FVec Ideal ⟨1, ![D]⟩ .f32)
    (h1 : (⟨1, ![N]⟩ : Shape).BroadcastsInDim ⟨2, ![N, 1]⟩ ![0])
    (h2 : (⟨2, ![N, 1]⟩ : Shape).BroadcastsInDim ⟨2, ![N, D]⟩ ![0, 1])
    (h3 : (⟨1, ![D]⟩ : Shape).BroadcastsInDim ⟨2, ![1, D]⟩ (![1] : Fin 1 → Fin 2))
    (h4 : (⟨2, ![1, D]⟩ : Shape).BroadcastsInDim ⟨2, ![N, D]⟩ (![0, 1] : Fin 2 → Fin 2)) :
    (addf (addf A (mulf H (broadcastInDim ⟨2, ![N, D]⟩ ![0, 1] h2 (broadcastInDim ⟨2, ![N, 1]⟩ ![0] h1 sw))))
      (broadcastInDim ⟨2, ![N, D]⟩ (![0, 1] : Fin 2 → Fin 2) h4 (broadcastInDim ⟨2, ![1, D]⟩ (![1] : Fin 1 → Fin 2) h3 b))
        : FVec Ideal ⟨2, ![N, D]⟩ .f32)
      = combine A H (asCol sw) (asRow b) := by
  funext i
  obtain ⟨n, k, rfl⟩ : ∃ (n : Fin N) (k : Fin D), i = ix2 n k := ⟨i 0, i 1, eq_ix2 i⟩
  show (A (ix2 n k) + H (ix2 n k) * broadcastInDim ⟨2, ![N, D]⟩ ![0, 1] h2 (broadcastInDim ⟨2, ![N, 1]⟩ ![0] h1 sw) (ix2 n k))
      + broadcastInDim ⟨2, ![N, D]⟩ (![0, 1] : Fin 2 → Fin 2) h4 (broadcastInDim ⟨2, ![1, D]⟩ (![1] : Fin 1 → Fin 2) h3 b) (ix2 n k) = _
  rw [Cert.Gcn.broadcastInDim_a1_ab_apply h2 _ n k, Cert.Gcn.broadcastInDim_a_a1_apply h1 sw n 0,
    LibSage.broadcastInDim_1b_ab_apply h4 _ n k, LibSage.broadcastInDim_b_1b_apply h3 b 0 k]
  rfl

/-- The host's spelling of the maximum with zero: against a zero broadcast from a scalar. -/
theorem relu_host {s : Shape} (X : FVec Ideal s .f32) (h0 : (⟨0, ![]⟩ : Shape).BroadcastsInDim s (![] : Fin 0 → Fin s.rank)) :
    (maximumf X (broadcastInDim s (![] : Fin 0 → Fin s.rank) h0 (constant (F := Ideal) ⟨0, ![]⟩ .f32 0x00000000#32)) : FVec Ideal s .f32)
      = fun i => relu (X i) := rfl

end GcnSpec

end
-- ==== Proof.BiasMax.lean ====
/-
  The second tiled region: a bias row added to every row, then the maximum with zero, 10000 rows at a time.

  The region reads a 50000 x 128 array in five blocks of 10000 rows and a one-row 1 x 128 array whole at every point, and
  writes block t of its output as max (block + the row stretched over the block's rows, 0): entry (p, q) of the block is
  max (a (10000 t + p, q) + b (0, q), 0), zero kept as its 32-bit word. That is the restriction to the block's rows of
  ONE array, the whole-array stage "add the row to every row, then the maximum with a zero broadcast from a scalar". The
  five blocks tile the output, so after the region the output array is that stage of the two arrays the region found.
-/
import proofs.«167362_j38216618999855_1_alg».proof.Proof.Gen.KernelIdeal.Frame
import proofs.«167362_j38216618999855_1_alg».proof.Proof.LibSage
import proofs.«167362_j38216618999855_1_alg».proof.Proof.LibGcnLayers
import proofs.«167362_j38216618999855_1_alg».proof.Proof.LibGcnCombine
import Idealize.ShloMosaic.Lib.ValueIdx
import Idealize.ShloMosaic.Lib.Pipeline.Value
import Idealize.ShloMosaic.PureOps.Ideal.Laws

set_option maxRecDepth 16384

noncomputable section

namespace Cert.KernelIdeal.BiasMax

open Idealize.ShloMosaic Idealize.ShloMosaic.TcCoe Idealize.SL.Sem Idealize.ShloMosaic.ValueIdx
open Cert.KernelIdeal Cert.KernelIdeal.Gen

/-- The whole-array stage: the row b stretched over the 50000 rows and added to a, then the maximum with a zero
    broadcast from a scalar. -/
abbrev whole (h2 : S1x128.BroadcastsInDim S50000x128 ![0, 1]) (h0 : S_.BroadcastsInDim S50000x128 ![])
    (a : S50000x128.Idx → EReal) (b : S1x128.Idx → EReal) : S50000x128.Idx → EReal :=
  maximumf (F := Ideal) (φ := .f32) (addf (F := Ideal) (φ := .f32) a (broadcastInDim S50000x128 ![0, 1] h2 b))
    (broadcastInDim S50000x128 ![] h0 (constant (F := Ideal) S_ .f32 0x00000000#32))

/-- The stage at (r, q): the maximum of a (r, q) + b (0, q) with zero. -/
theorem whole_apply (h2 : S1x128.BroadcastsInDim S50000x128 ![0, 1]) (h0 : S_.BroadcastsInDim S50000x128 ![])
    (a : S50000x128.Idx → EReal) (b : S1x128.Idx → EReal) (r : Fin 50000) (q : Fin 128) :
    whole h2 h0 a b (ix2 r q) = GcnSpec.relu (a (ix2 r q) + b (ix2 (n0 := 1) (n1 := 128) 0 q)) := by
  show GcnSpec.relu (a (ix2 r q) + broadcastInDim S50000x128 ![0, 1] h2 b (ix2 r q)) = _
  rw [LibSage.broadcastInDim_1b_ab_apply]

/-- What one point stores, at (p, q): the maximum of its block at (p, q) + the row at (0, q) with zero. -/
theorem stored_apply (x0 : Vec Ideal S10000x128 .f32) (x2 : Vec Ideal S1x128 .f32) (p : Fin 10000) (q : Fin 128) :
    k1_pay1 (F := Ideal) x0 x2 (ix2 p q) = GcnSpec.relu (x0 (ix2 p q) + x2 (ix2 (n0 := 1) (n1 := 128) 0 q)) := by
  unfold k1_pay1
  show GcnSpec.relu ((addf (shapeCast S10000x128 x0 shapeCasts_S10000x128_S10000x128)
      (broadcastTo S10000x128 (shapeCast S1x128 x2 shapeCasts_S1x128_S1x128) broadcasts_S1x128_S10000x128) : FVec Ideal S10000x128 .f32) (ix2 p q)) = _
  rw [GcnLayers.row_plus_apply]

/-- A block of 10000 rows starting at row o: if the point's block is rows o .. o + 9999 of a and its row operand is b, what
    it stores at j is the whole-array stage at the index i whose row is o + (row of j) and whose column is j's. -/
theorem tile (h2 : S1x128.BroadcastsInDim S50000x128 ![0, 1]) (h0 : S_.BroadcastsInDim S50000x128 ![])
    (o : ℕ) (ho : o + 10000 ≤ 50000) (x0 : Vec Ideal S10000x128 .f32) (x2 : Vec Ideal S1x128 .f32)
    (a : S50000x128.Idx → EReal) (b : S1x128.Idx → EReal)
    (hx0 : ∀ (p : Fin 10000) (q : Fin 128), x0 (ix2 p q) = a (ix2 (⟨o + p.val, by omega⟩ : Fin 50000) q))
    (hx2 : ∀ q : Fin 128, x2 (ix2 (n0 := 1) (n1 := 128) 0 q) = b (ix2 (n0 := 1) (n1 := 128) 0 q))
    (j : S10000x128.Idx) (i : S50000x128.Idx) (hi0 : (i 0).val = o + (j 0).val) (hi1 : (i 1).val = (j 1).val) :
    k1_pay1 (F := Ideal) x0 x2 j = whole h2 h0 a b i := by
  obtain ⟨p, q, rfl⟩ : ∃ (p : Fin 10000) (q : Fin 128), j = ix2 p q := ⟨j 0, j 1, eq_ix2 j⟩
  have hi : i = ix2 (⟨o + p.val, by omega⟩ : Fin 50000) q := by
    funext d; apply Fin.ext
    match d with
    | ⟨0, _⟩ => exact hi0
    | ⟨1, _⟩ => exact hi1
  rw [hi, stored_apply, whole_apply, hx0, hx2]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the five points: the input's and the output's row block is the point's number, their column
    block is 0, and the row operand's block is always (0, 0). -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array stage of the arrays the region finds. -/
theorem flushed_eq (h2 : S1x128.BroadcastsInDim S50000x128 ![0, 1]) (h0 : S_.BroadcastsInDim S50000x128 ![])
    (c : Dev nD) (t : Fin cfg1.N) :
    (dat1 V c).flushed 2 t = ((cfg1.win 2).blk t).view.read (Elt Ideal) (whole h2 h0 (V c main_v44) (V c main_v45)) := by
  show (cfg1.win 2).cut (grid1.coords t) ((dat1 V c).after 2 t) = _
  rw [after1_2]
  unfold out1_2
  rw [View.canon_unit_zero origin]
  simp only [View.ld_unit_zero (S := S10000x128) origin, View.ld_unit_zero (S := S1x128) origin]
  obtain ⟨e0, e1, e2, e3, e4, e5⟩ := index_facts t
  have ht : t.val < 5 := by
    have h := t.isLt
    have hN : cfg1.N = 5 := N_1
    omega
  funext j
  refine tile h2 h0 (win1_2.index t (0 : Fin 2) * 10000) (by omega) (iblk1 V c 0 t) (iblk1 V c 1 t) (V c main_v44) (V c main_v45)
    (fun p q => ?_) (fun q => ?_) j (((cfg1.win 2).blk t).view.emb j) ?_ ?_
  · show V c main_v44 (((cfg1.win 0).blk t).view.emb (ix2 p q)) = V c main_v44 _
    congr 1
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 128 + 1 * q.val = q.val; omega
  · show V c main_v45 (((cfg1.win 1).blk t).view.emb (ix2 (n0 := 1) (n1 := 128) 0 q)) = V c main_v45 _
    congr 1
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · show win1_2.index t (0 : Fin 2) * 10000 + 1 * (j 0).val = win1_2.index t (0 : Fin 2) * 10000 + (j 0).val; omega
  · show win1_2.index t (1 : Fin 2) * 128 + 1 * (j 1).val = (j 1).val; omega

/-- An index of the output array is in point t's block iff each coordinate is in the block's range on its axis. -/
theorem mem_block (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- The five blocks tile the output: row r lies in block r / 10000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  have hN' : grid1.N = 5 := N_1
  have hlt : (i 0).val / 10000 < cfg1.N := by omega
  refine ⟨⟨(i 0).val / 10000, hlt⟩, flush1_2 _, ?_⟩
  rw [mem_block]
  obtain ⟨e0, e1, e2, e3, e4, e5⟩ := index_facts ⟨(i 0).val / 10000, hlt⟩
  have e4' : win1_2.index ⟨(i 0).val / 10000, hlt⟩ (0 : Fin 2) = (i 0).val / 10000 := e4
  intro a
  match a with
  | ⟨0, _⟩ => show win1_2.index _ (0 : Fin 2) * 10000 ≤ (i 0).val ∧ (i 0).val < win1_2.index _ (0 : Fin 2) * 10000 + 10000; omega
  | ⟨1, _⟩ => show win1_2.index _ (1 : Fin 2) * 128 ≤ (i 1).val ∧ (i 1).val < win1_2.index _ (1 : Fin 2) * 128 + 128; omega

/-- After the region its output array is the whole-array stage of the two arrays it found. -/
theorem array_eq (h2 : S1x128.BroadcastsInDim S50000x128 ![0, 1]) (h0 : S_.BroadcastsInDim S50000x128 ![]) (c : Dev nD) :
    (dat1 V c).arrAt 2 cfg1.N = whole h2 h0 (V c main_v44) (V c main_v45) :=
  (dat1 V c).arrAt_eq_of_cover 2 (whole h2 h0 (V c main_v44) (V c main_v45)) (fun t _ => flushed_eq V h2 h0 c t) cover

end Cert.KernelIdeal.BiasMax

end
-- ==== Proof.SecondProduct.lean ====
/-
  The third tiled region: the second matrix product, again 10000 rows at a time.

  The region reads a 50000 x 128 array in five blocks of 10000 rows and the whole 128 x 1 weight column at every point, and
  writes block t of its 50000 x 1 output as the product of block t with the column (the change to a shorter float format
  before the product is the identity on the extended reals, and the accumulator starts at zero). Row r of that block is
  row (10000 t + r) of the input times the column, so every block is the restriction of ONE array, the whole
  50000 x 128 by 128 x 1 product, and the five blocks tile the output: after the region the output array is that product.
-/
import proofs.«167362_j38216618999855_1_alg».proof.Proof.Gen.KernelIdeal.Frame
import proofs.«167362_j38216618999855_1_alg».proof.Proof.LibDense
import proofs.«167362_j38216618999855_1_alg».proof.Proof.LibSage
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.SecondProduct

open Idealize.ShloMosaic Idealize.ShloMosaic.TcCoe Idealize.SL.Sem Idealize.ShloMosaic.ValueIdx
open Cert.KernelIdeal Cert.KernelIdeal.Gen

/-- The whole product: 50000 x 128 by 128 x 1, as the host computes it. -/
abbrev whole (x : S50000x128.Idx → EReal) (w : S128x1.Idx → EReal) : S50000x1.Idx → EReal :=
  Host.dotGeneral (F := Ideal) (φ₁ := .f32) (φ₂ := .f32) (DotDims.plain 50000 128 1) none x w

/-- The whole product at (r, c): the sum over k of x (r, k) * w (k, c). -/
theorem whole_apply (x : S50000x128.Idx → EReal) (w : S128x1.Idx → EReal) (r : Fin 50000) (c : Fin 1) :
    whole x w (ix2 r c) = ∑ k : Fin 128, x (ix2 r k) * w (ix2 k c) :=
  LibSage.plain_dotGeneral_apply (DotDims.plain 50000 128 1) rfl none x w r c

/-- What one point stores, at (p, q): the sum over k of its input block at (p, k) times the column at (k, q) (the cast of
    the block to its own shape is the identity). -/
theorem stored_apply (x0 : Vec Ideal S10000x128 .f32) (x1 : Vec Ideal S128x1 .f32) (p : Fin 10000) (q : Fin 1) :
    k2_pay1 (F := Ideal) x0 x1 (ix2 p q) = ∑ k : Fin 128, x0 (ix2 p k) * x1 (ix2 k q) := by
  unfold k2_pay1
  refine (LibDense.plain_matmul_apply dot_S10000x128_S128x1_S10000x1_1_0_0_1_n_n rfl none _ _ p q).trans ?_
  refine Finset.sum_congr rfl fun k _ => ?_
  rw [truncf_apply, truncf_apply, shapeCast_self]

/-- A block of 10000 rows starting at row o: if the point's input block is rows o .. o + 9999 of x and its second operand is
    the column w, what it stores at j is the whole product at the index i whose row is o + (row of j) and whose column is j's. -/
theorem tile (o : ℕ) (ho : o + 10000 ≤ 50000) (x0 : Vec Ideal S10000x128 .f32) (x1 : Vec Ideal S128x1 .f32)
    (x : S50000x128.Idx → EReal) (w : S128x1.Idx → EReal)
    (hx0 : ∀ (p : Fin 10000) (k : Fin 128), x0 (ix2 p k) = x (ix2 (⟨o + p.val, by omega⟩ : Fin 50000) k))
    (hx1 : ∀ (k : Fin 128) (q : Fin 1), x1 (ix2 k q) = w (ix2 k q))
    (j : S10000x1.Idx) (i : S50000x1.Idx) (hi0 : (i 0).val = o + (j 0).val) (hi1 : (i 1).val = (j 1).val) :
    k2_pay1 (F := Ideal) x0 x1 j = whole x w i := by
  obtain ⟨p, q, rfl⟩ : ∃ (p : Fin 10000) (q : Fin 1), j = ix2 p q := ⟨j 0, j 1, eq_ix2 j⟩
  have hi : i = ix2 (⟨o + p.val, by omega⟩ : Fin 50000) q := by
    funext a; apply Fin.ext
    match a with
    | ⟨0, _⟩ => exact hi0
    | ⟨1, _⟩ => exact hi1
  rw [hi, stored_apply, whole_apply]
  exact Finset.sum_congr rfl fun k _ => by rw [hx0, hx1]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the five points: the input's and the output's row block is the point's number, their column
    block is 0, and the column's block is always (0, 0). -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed_eq (c : Dev nD) (t : Fin cfg2.N) :
    (dat2 V c).flushed 2 t = ((cfg2.win 2).blk t).view.read (Elt Ideal) (whole (V c main_v46) (V c main_arg4)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x1) origin]
  obtain ⟨e0, e1, e2, e3, e4, e5⟩ := index_facts t
  have ht : t.val < 5 := by
    have h := t.isLt
    have hN : cfg2.N = 5 := N_2
    omega
  funext j
  refine tile (win2_2.index t (0 : Fin 2) * 10000) (by omega) (iblk2 V c 0 t) (iblk2 V c 1 t) (V c main_v46) (V c main_arg4)
    (fun p k => ?_) (fun k q => ?_) j (((cfg2.win 2).blk t).view.emb j) ?_ ?_
  · show V c main_v46 (((cfg2.win 0).blk t).view.emb (ix2 p k)) = V c main_v46 _
    congr 1
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · show V c main_arg4 (((cfg2.win 1).blk t).view.emb (ix2 k q)) = V c main_arg4 _
    congr 1
    funext a; apply Fin.ext
    match a with
    | ⟨0, _⟩ => show win2_1.index t (0 : Fin 2) * 128 + 1 * k.val = k.val; omega
    | ⟨1, _⟩ => show win2_1.index t (1 : Fin 2) * 1 + 1 * q.val = q.val; omega
  · show win2_2.index t (0 : Fin 2) * 10000 + 1 * (j 0).val = win2_2.index t (0 : Fin 2) * 10000 + (j 0).val; omega
  · show win2_2.index t (1 : Fin 2) * 1 + 1 * (j 1).val = (j 1).val; omega

/-- An index of the output array is in point t's block iff each coordinate is in the block's range on its axis. -/
theorem mem_block (t : Fin cfg2.N) (i : S50000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v47).slice (win2_2.rect t)).set ↔ _
  rw [View.set_slice_whole, Rect.mem_set_unit]
  exact Iff.rfl

/-- The five blocks tile the output: row r lies in block r / 10000. -/
theorem cover (i : S50000x1.Idx) : ∃ t : Fin cfg2.N, (cfg2.win 2).flush t = true ∧ i ∈ ((cfg2.win 2).blk t).view.set := by
  have hi0 : (i 0).val < 50000 := (i 0).isLt
  have hi1 : (i 1).val < 1 := (i 1).isLt
  have hN : cfg2.N = 5 := N_2
  have hN' : grid2.N = 5 := N_2
  have hlt : (i 0).val / 10000 < cfg2.N := by omega
  refine ⟨⟨(i 0).val / 10000, hlt⟩, flush2_2 _, ?_⟩
  rw [mem_block]
  obtain ⟨e0, e1, e2, e3, e4, e5⟩ := index_facts ⟨(i 0).val / 10000, hlt⟩
  have e4' : win2_2.index ⟨(i 0).val / 10000, hlt⟩ (0 : Fin 2) = (i 0).val / 10000 := e4
  intro a
  match a with
  | ⟨0, _⟩ => show win2_2.index _ (0 : Fin 2) * 10000 ≤ (i 0).val ∧ (i 0).val < win2_2.index _ (0 : Fin 2) * 10000 + 10000; omega
  | ⟨1, _⟩ => show win2_2.index _ (1 : Fin 2) * 1 ≤ (i 1).val ∧ (i 1).val < win2_2.index _ (1 : Fin 2) * 1 + 1; omega

/-- After the region its output array is the whole product of the input array and the weight column it found. -/
theorem array_eq (c : Dev nD) :
    (dat2 V c).arrAt 2 cfg2.N = whole (V c main_v46) (V c main_arg4) :=
  (dat2 V c).arrAt_eq_of_cover 2 (whole (V c main_v46) (V c main_arg4)) (fun t _ => flushed_eq V c t) cover

end Cert.KernelIdeal.SecondProduct

end
-- ==== Proof.Bridge.lean ====
/-
  The idealized kernel's result, boundary by boundary, is the reference's result.

  The kernel's program and the reference apply the SAME host operations around three dense stages: the degree vector
  and its inverse square root from the edge list; a first product x.W1; the normalised neighbour sum of its rows plus
  the self term; a bias row and a maximum with zero; a second product with the column W2; the neighbour sum again, the
  second bias and a reshape. The kernel does the three dense stages as row-tiled regions, the reference as whole-array host
  operations, and each region's output array is the whole-array stage of the arrays it found (the three region
  modules). So reading the kernel's buffers back from one boundary to the next, every value met is one of the reference's
  named stages of the SAME argument arrays: the source and destination vectors and the inverse square root after the first
  stretch, the first product after the first region, the neighbour sum and the bias as one row after the second stretch
  (a vector reshaped to one row is that vector broadcast along the row), the hidden layer after the second region, the
  second product after the third, and the result after the last stretch. Nothing here opens a gather or a scatter: the
  shared operations are compared as the same operations applied to equal values. (The reference recomputes the inverse
  square root for its second layer from the same edge list; the two terms unfold to one.)
-/
import proofs.«167362_j38216618999855_1_alg».proof.Proof.Gen.KernelIdeal.Frame
import proofs.«167362_j38216618999855_1_alg».proof.Proof.Gen.ReferenceIdeal.Read
import proofs.«167362_j38216618999855_1_alg».proof.Proof.FirstProduct
import proofs.«167362_j38216618999855_1_alg».proof.Proof.BiasMax
import proofs.«167362_j38216618999855_1_alg».proof.Proof.SecondProduct
import proofs.«167362_j38216618999855_1_alg».proof.Proof.LibKeepdims
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## After the first stretch of host operations: the arguments untouched, the edge list's two rows as vectors, and the
    inverse square root of the degrees -/

theorem first_arg0 : W1 m ρ c (Proc.devRef .tc main_arg0) = m ((c.tc : Thread nD τ).loc main_arg0) := by
  show StableHlo.after hostOps0 (W0 m ρ c) (Proc.devRef .tc main_arg0) = _
  dsimp only [hostOps0]
  after_results <;> rfl
theorem first_arg2 : W1 m ρ c (Proc.devRef .tc main_arg2) = m ((c.tc : Thread nD τ).loc main_arg2) := by
  show StableHlo.after hostOps0 (W0 m ρ c) (Proc.devRef .tc main_arg2) = _
  dsimp only [hostOps0]
  after_results <;> rfl
theorem first_arg3 : W1 m ρ c (Proc.devRef .tc main_arg3) = m ((c.tc : Thread nD τ).loc main_arg3) := by
  show StableHlo.after hostOps0 (W0 m ρ c) (Proc.devRef .tc main_arg3) = _
  dsimp only [hostOps0]
  after_results <;> rfl
theorem first_arg4 : W1 m ρ c (Proc.devRef .tc main_arg4) = m ((c.tc : Thread nD τ).loc main_arg4) := by
  show StableHlo.after hostOps0 (W0 m ρ c) (Proc.devRef .tc main_arg4) = _
  dsimp only [hostOps0]
  after_results <;> rfl
theorem first_arg5 : W1 m ρ c (Proc.devRef .tc main_arg5) = m ((c.tc : Thread nD τ).loc main_arg5) := by
  show StableHlo.after hostOps0 (W0 m ρ c) (Proc.devRef .tc main_arg5) = _
  dsimp only [hostOps0]
  after_results <;> rfl

/-- The source vector: row 0 of the edge list. -/
theorem first_src : W1 m ρ c (Proc.devRef .tc main_v1) = val_main_v1 (F := Ideal) (m ((c.tc : Thread nD τ).loc main_arg1)) := by
  show StableHlo.after hostOps0 (W0 m ρ c) (Proc.devRef .tc main_v1) = _
  dsimp only [hostOps0]
  after_results <;> rfl
/-- The destination vector: row 1 of the edge list. -/
theorem first_dst : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results <;> rfl
/-- The inverse square root of (number of incoming edges + 1), node by node. -/
theorem first_dinv : W1 m ρ c (Proc.devRef .tc main_v10) = val_main_v11 (F := Ideal) (m ((c.tc : Thread nD τ).loc main_arg1)) := by
  show StableHlo.after hostOps0 (W0 m ρ c) (Proc.devRef .tc main_v10) = _
  dsimp only [hostOps0]
  after_results <;> rfl

/-! ## After the first region: its output is the first product; it writes nothing else -/

theorem second_src : W2 m ρ c (Proc.devRef .tc main_v1) = val_main_v1 (F := Ideal) (m ((c.tc : Thread nD τ).loc main_arg1)) :=
  (W2_of_ne m ρ c main_v1 (by decide)).trans (first_src m ρ c)
theorem second_dst : W2 m ρ c (Proc.devRef .tc main_v3) = val_main_v3 (F := Ideal) (m ((c.tc : Thread nD τ).loc main_arg1)) :=
  (W2_of_ne m ρ c main_v3 (by decide)).trans (first_dst m ρ c)
theorem second_dinv : W2 m ρ c (Proc.devRef .tc main_v10) = val_main_v11 (F := Ideal) (m ((c.tc : Thread nD τ).loc main_arg1)) :=
  (W2_of_ne m ρ c main_v10 (by decide)).trans (first_dinv m ρ c)
theorem second_arg3 : W2 m ρ c (Proc.devRef .tc main_arg3) = m ((c.tc : Thread nD τ).loc main_arg3) :=
  (W2_of_ne m ρ c main_arg3 (by decide)).trans (first_arg3 m ρ c)
theorem second_arg4 : W2 m ρ c (Proc.devRef .tc main_arg4) = m ((c.tc : Thread nD τ).loc main_arg4) :=
  (W2_of_ne m ρ c main_arg4 (by decide)).trans (first_arg4 m ρ c)
theorem second_arg5 : W2 m ρ c (Proc.devRef .tc main_arg5) = m ((c.tc : Thread nD τ).loc main_arg5) :=
  (W2_of_ne m ρ c main_arg5 (by decide)).trans (first_arg5 m ρ c)

/-- The first product x.W1. -/
theorem second_product : W2 m ρ c (Proc.devRef .tc main_v11) = val_main_v4 (F := Ideal) (m ((c.tc : Thread nD τ).loc main_arg0)) (m ((c.tc : Thread nD τ).loc main_arg2)) := by
  refine (W2_arr m ρ c 2).trans ((FirstProduct.array_eq (V1 m ρ) c).trans ?_)
  show FirstProduct.whole (W1 m ρ c (Proc.devRef .tc main_arg0)) (W1 m ρ c (Proc.devRef .tc main_arg2)) = _
  rw [first_arg0, first_arg2]
  rfl

/-! ## After the second stretch of host operations: the neighbour sum of the first product's rows plus the self term, and
    the first bias as one row -/

theorem third_src : W3 m ρ c (Proc.devRef .tc main_v1) = val_main_v1 (F := Ideal) (m ((c.tc : Thread nD τ).loc main_arg1)) := by
  show StableHlo.after hostOps1 (W2 m ρ c) (Proc.devRef .tc main_v1) = _
  dsimp only [hostOps1]
  after_results
  exact second_src m ρ c
theorem third_dst : W3 m ρ c (Proc.devRef .tc main_v3) = val_main_v3 (F := Ideal) (m ((c.tc : Thread nD τ).loc main_arg1)) := by
  show StableHlo.after hostOps1 (W2 m ρ c) (Proc.devRef .tc main_v3) = _
  dsimp only [hostOps1]
  after_results
  exact second_dst m ρ c
theorem third_dinv : W3 m ρ c (Proc.devRef .tc main_v10) = val_main_v11 (F := Ideal) (m ((c.tc : Thread nD τ).loc main_arg1)) := by
  show StableHlo.after hostOps1 (W2 m ρ c) (Proc.devRef .tc main_v10) = _
  dsimp only [hostOps1]
  after_results
  exact second_dinv m ρ c
theorem third_arg4 : W3 m ρ c (Proc.devRef .tc main_arg4) = m ((c.tc : Thread nD τ).loc main_arg4) := by
  show StableHlo.after hostOps1 (W2 m ρ c) (Proc.devRef .tc main_arg4) = _
  dsimp only [hostOps1]
  after_results
  exact second_arg4 m ρ c
theorem third_arg5 : W3 m ρ c (Proc.devRef .tc main_arg5) = m ((c.tc : Thread nD τ).loc main_arg5) := by
  show StableHlo.after hostOps1 (W2 m ρ c) (Proc.devRef .tc main_arg5) = _
  dsimp only [hostOps1]
  after_results
  exact second_arg5 m ρ c

set_option maxHeartbeats 4000000 in
/-- The first layer before its bias: for every node the sum over its incoming edges of the source's row scaled by the two
    ends' inverse square roots, plus the node's own row scaled by its inverse square root squared. -/
theorem third_agg : W3 m ρ c (Proc.devRef .tc main_v44) = val_main_v44 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v44) = _
  dsimp only [hostOps1]
  after_results_simp
  rw [second_product, second_src, second_dst, second_dinv]
  rfl

/-- The first bias as one row: the kernel reshapes the vector to one row, the reference broadcasts it along the row. -/
theorem third_row : W3 m ρ c (Proc.devRef .tc main_v45) = val_main_v45 (F := Ideal) (m ((c.tc : Thread nD τ).loc main_arg3)) := by
  show StableHlo.after hostOps1 (W2 m ρ c) (Proc.devRef .tc main_v45) = _
  dsimp only [hostOps1]
  after_results
  rw [second_arg3]
  exact Cert.Gcn.reshape_row_eq_broadcast _ _ _

/-! ## After the second region: its output is the hidden layer; it writes nothing else -/

theorem fourth_src : W4 m ρ c (Proc.devRef .tc main_v1) = val_main_v1 (F := Ideal) (m ((c.tc : Thread nD τ).loc main_arg1)) :=
  (W4_of_ne m ρ c main_v1 (by decide)).trans (third_src m ρ c)
theorem fourth_dst : W4 m ρ c (Proc.devRef .tc main_v3) = val_main_v3 (F := Ideal) (m ((c.tc : Thread nD τ).loc main_arg1)) :=
  (W4_of_ne m ρ c main_v3 (by decide)).trans (third_dst m ρ c)
theorem fourth_dinv : W4 m ρ c (Proc.devRef .tc main_v10) = val_main_v11 (F := Ideal) (m ((c.tc : Thread nD τ).loc main_arg1)) :=
  (W4_of_ne m ρ c main_v10 (by decide)).trans (third_dinv m ρ c)
theorem fourth_arg4 : W4 m ρ c (Proc.devRef .tc main_arg4) = m ((c.tc : Thread nD τ).loc main_arg4) :=
  (W4_of_ne m ρ c main_arg4 (by decide)).trans (third_arg4 m ρ c)
theorem fourth_arg5 : W4 m ρ c (Proc.devRef .tc main_arg5) = m ((c.tc : Thread nD τ).loc main_arg5) :=
  (W4_of_ne m ρ c main_arg5 (by decide)).trans (third_arg5 m ρ c)

/-- The hidden layer: the first layer plus its bias row, then the maximum with zero. -/
theorem fourth_hidden : W4 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 2).trans ((BiasMax.array_eq (V3 m ρ) Cert.ReferenceIdeal.Facts₀.bcast_S1x128_S50000x128_0_1 Cert.ReferenceIdeal.Facts₀.bcast_S_S50000x128 c).trans ?_)
  show BiasMax.whole _ _ (W3 m ρ c (Proc.devRef .tc main_v44)) (W3 m ρ c (Proc.devRef .tc main_v45)) = _
  rw [third_agg, third_row]
  rfl

/-! ## After the third region: its output is the second product; it writes nothing else -/

theorem fifth_src : W5 m ρ c (Proc.devRef .tc main_v1) = val_main_v1 (F := Ideal) (m ((c.tc : Thread nD τ).loc main_arg1)) :=
  (W5_of_ne m ρ c main_v1 (by decide)).trans (fourth_src m ρ c)
theorem fifth_dst : W5 m ρ c (Proc.devRef .tc main_v3) = val_main_v3 (F := Ideal) (m ((c.tc : Thread nD τ).loc main_arg1)) :=
  (W5_of_ne m ρ c main_v3 (by decide)).trans (fourth_dst m ρ c)
theorem fifth_dinv : W5 m ρ c (Proc.devRef .tc main_v10) = val_main_v11 (F := Ideal) (m ((c.tc : Thread nD τ).loc main_arg1)) :=
  (W5_of_ne m ρ c main_v10 (by decide)).trans (fourth_dinv m ρ c)
theorem fifth_arg5 : W5 m ρ c (Proc.devRef .tc main_arg5) = m ((c.tc : Thread nD τ).loc main_arg5) :=
  (W5_of_ne m ρ c main_arg5 (by decide)).trans (fourth_arg5 m ρ c)

/-- The second product: the hidden layer times the column W2. -/
theorem fifth_product : W5 m ρ c (Proc.devRef .tc main_v47) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((SecondProduct.array_eq (V4 m ρ) c).trans ?_)
  show SecondProduct.whole (W4 m ρ c (Proc.devRef .tc main_v46)) (W4 m ρ c (Proc.devRef .tc main_arg4)) = _
  rw [fourth_hidden, fourth_arg4]
  rfl

/-! ## After the last stretch of host operations: the result -/

set_option maxHeartbeats 4000000 in
/-- The kernel's result buffer holds the reference's result of the same six argument arrays. -/
theorem result : W6 m ρ c (Proc.devRef .tc main_v82)
    = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps3 (W5 m ρ c) (Proc.devRef .tc main_v82) = _
  dsimp only [hostOps3]
  after_results_simp
  rw [fifth_product, fifth_src, fifth_dst, fifth_dinv, fifth_arg5]
  rfl

end Cert.Bridge

end
-- ==== Proof.lean ====
/-
  A two-layer graph convolution: the kernel against its plain reference, on the extended reals.

  Both programs compute, for 50000 nodes with 128 features and 800000 edges (source, destination),
      d    = 1 / sqrt (number of edges into the node + 1)
      L(h) = for every node n: sum over the edges e into n of h[source e] * (d[source e] * d[destination e]) + h[n] * d[n]^2
      out  = L (max (L (x.W1) + b1, 0) . W2) + b2        (a vector of 50000 entries),
  with the same gathers, scatter-additions, broadcasts and products in the same order. They differ only in how the three
  dense stages are done: the kernel does x.W1, the bias-and-maximum and the product with W2 as regions tiled over blocks of
  10000 rows (after a change to a shorter float format that is the identity on the extended reals, into an accumulator that
  starts at zero), the reference as whole-array operations; the kernel reshapes b1 to one row where the reference broadcasts
  it; and the reference computes d twice. A row block of a product, or of a row added and a maximum taken, is the same rows
  of the whole-array stage, and the five blocks tile the array, so each region's output array IS the whole-array stage
  (the three region modules). Reading the kernel's buffers back from its last boundary to the launch memory therefore meets,
  at every step, one of the reference's named stages of the same argument arrays (the bridge module), and the two results are
  one term. No law of arithmetic is used and the inputs' finiteness is never needed.

  The kernel as printed and its idealization both terminate with their arguments unchanged (their generated frames), and so
  does the reference (its generated run, the result dropped). The idealization rewrote no operation, so it is the printed
  program's own text read on the extended reals.
-/
import proofs.«167362_j38216618999855_1_alg».proof.Defs
import proofs.«167362_j38216618999855_1_alg».proof.Proof.Gen.Kernel
import proofs.«167362_j38216618999855_1_alg».proof.Proof.Gen.Kernel.Frame
import proofs.«167362_j38216618999855_1_alg».proof.Proof.Gen.KernelIdeal
import proofs.«167362_j38216618999855_1_alg».proof.Proof.Gen.KernelIdeal.Frame
import proofs.«167362_j38216618999855_1_alg».proof.Proof.Gen.ReferenceIdeal
import proofs.«167362_j38216618999855_1_alg».proof.Proof.Gen.Pre_finite_inputs
import proofs.«167362_j38216618999855_1_alg».proof.Proof.Gen.ReferenceIdeal.Run
import proofs.«167362_j38216618999855_1_alg».proof.Proof.Gen.ReferenceIdeal.Read
import proofs.«167362_j38216618999855_1_alg».proof.Proof.NamedRun
import proofs.«167362_j38216618999855_1_alg».proof.Proof.Bridge
import Idealize.ShloMosaic.Adequacy
import Idealize.ShloMosaic.Init

noncomputable section

namespace Cert.Proof

open Idealize.ShloMosaic Idealize.SL.Sem Cert.Kernel

/-- The kernel as printed terminates with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the same vector: the reference's last stage of the
    kernel's argument arrays. -/
theorem algebraic : Cert.algebraic_KernelIdeal_ReferenceIdeal := by
  intro m ρ m' ρ' _ hagree
  refine ⟨fun c => Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Bridge.result m ρ c), (h c).2⟩)
      (Cert.KernelIdeal.NamedRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v91_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
